-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000 : Shape := ⟨1, ![1000000]⟩
abbrev S64x128 : Shape := ⟨2, ![64, 128]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S1000000x64 .f32) (main_arg1 : IVec S1000000 32) (main_arg2 : IVec S1000000 32) (main_arg3 : IVec S1000000 1) (main_arg4 : FVec F S64x128 .f32) (main_arg5 : FVec F S64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S1000000x64 : Shape := ⟨2, ![1000000, 64]⟩
abbrev S1000000 : Shape := ⟨1, ![1000000]⟩
abbrev S64x128 : Shape := ⟨2, ![64, 128]⟩
abbrev S64 : Shape := ⟨1, ![64]⟩
abbrev S_ : Shape := ⟨0, ![]⟩
abbrev S1000000x1 : Shape := ⟨2, ![1000000, 1]⟩
abbrev S64x64 : Shape := ⟨2, ![64, 64]⟩
abbrev S1x64 : Shape := ⟨2, ![1, 64]⟩
abbrev S10000x64 : Shape := ⟨2, ![10000, 64]⟩

abbrev nBuf : Space → Nat
  | .hbm => 38
  | .vmem => 9
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S1000000, .i32⟩
  | .hbm, ⟨3, _⟩ => ⟨S1000000, .i1⟩
  | .hbm, ⟨4, _⟩ => ⟨S64x128, .f32⟩
  | .hbm, ⟨5, _⟩ => ⟨S64, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S1000000x1, .i1⟩
  | .hbm, ⟨25, _⟩ => ⟨S_, .f32⟩
  | .hbm, ⟨26, _⟩ => ⟨S_, .f32⟩
  | .hbm, ⟨27, _⟩ => ⟨S1000000x64, .i1⟩
  | .hbm, ⟨28, _⟩ => ⟨S1000000x64, .f32⟩
  | .hbm, ⟨29, _⟩ => ⟨S1000000x64, .f32⟩
  | .hbm, ⟨30, _⟩ => ⟨S64x64, .f32⟩
  | .hbm, ⟨31, _⟩ => ⟨S64x64, .f32⟩
  | .hbm, ⟨32, _⟩ => ⟨S64x64, .bf16⟩
  | .hbm, ⟨33, _⟩ => ⟨S64x64, .f32⟩
  | .hbm, ⟨34, _⟩ => ⟨S64x64, .f32⟩
  | .hbm, ⟨35, _⟩ => ⟨S64x64, .bf16⟩
  | .hbm, ⟨36, _⟩ => ⟨S1x64, .f32⟩
  | .hbm, ⟨37, _⟩ => ⟨S1000000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .bf16⟩
  | .local _ .vmem, ⟨5, _⟩ => ⟨S64x64, .bf16⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S1000000x64 : S_.BroadcastsInDim S1000000x64 (![] : Fin 0 → Fin S1000000x64.rank)
  slices_S64x128_S64x64_0_0 : S64x128.Slices ![0, 0] S64x64
  transposes_S64x64_S64x64_1_0 : S64x64.Transposes [1, 0] S64x64
  bitsLt_bf16_f32 : FTy.bits .bf16 < FTy.bits .f32
  slices_S64x128_S64x64_0_64 : S64x128.Slices ![0, 64] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S1000000x64_S1000000x1_S1000000x64_1_0_n_n_0_1_164_wf : GatherDims.WF S1000000x64 S1000000x1 S1000000x64 [1] [0] [] [0] [] 1 ![1, 64]
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1000000x64.size a
  hwx0_1 : ∀ i : grid0.Coords, EltTy.bits .f32 = 32 ∨ (Rect.block (s := S1000000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1000000x64.size a
  hwx0_5 : ∀ i : grid0.Coords, EltTy.bits .f32 = 32 ∨ (Rect.block (s := S1000000x64) S10000x64.size (cc0_transform_5 i) (hinb0_5 i)).WholeWords (EltTy.packing .f32)

variable [Facts₀]

def gather_S1000000x64_S1000000x1_S1000000x64_1_0_n_n_0_1_164 : GatherDims S1000000x64 S1000000x1 S1000000x64 where
  offsetDims := [1]
  collapsedSliceDims := [0]
  operandBatchingDims := []
  startIndicesBatchingDims := []
  startIndexMap := [0]
  indexVectorDim := 1
  sliceSizes := ![1, 64]
  wf := gather_S1000000x64_S1000000x1_S1000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S1000000 : Shape := ⟨1, ![1000000]⟩
abbrev S64x128 : Shape := ⟨2, ![64, 128]⟩
abbrev S64 : Shape := ⟨1, ![64]⟩
abbrev S_ : Shape := ⟨0, ![]⟩
abbrev S1000000x1 : Shape := ⟨2, ![1000000, 1]⟩
abbrev S1000000x128 : Shape := ⟨2, ![1000000, 128]⟩
abbrev S128x64 : Shape := ⟨2, ![128, 64]⟩
abbrev S1x64 : Shape := ⟨2, ![1, 64]⟩

abbrev nBuf : Space → Nat
  | .hbm => 39
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S1000000, .i32⟩
  | .hbm, ⟨3, _⟩ => ⟨S1000000, .i1⟩
  | .hbm, ⟨4, _⟩ => ⟨S64x128, .f32⟩
  | .hbm, ⟨5, _⟩ => ⟨S64, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S1000000x1, .i1⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .f32⟩
  | .hbm, ⟨26, _⟩ => ⟨S_, .f32⟩
  | .hbm, ⟨27, _⟩ => ⟨S1000000x64, .i1⟩
  | .hbm, ⟨28, _⟩ => ⟨S1000000x64, .f32⟩
  | .hbm, ⟨29, _⟩ => ⟨S1000000x64, .f32⟩
  | .hbm, ⟨30, _⟩ => ⟨S1000000x128, .f32⟩
  | .hbm, ⟨31, _⟩ => ⟨S128x64, .f32⟩
  | .hbm, ⟨32, _⟩ => ⟨S1000000x64, .f32⟩
  | .hbm, ⟨33, _⟩ => ⟨S1x64, .f32⟩
  | .hbm, ⟨34, _⟩ => ⟨S1000000x64, .f32⟩
  | .hbm, ⟨35, _⟩ => ⟨S1000000x64, .f32⟩
  | .hbm, ⟨36, _⟩ => ⟨S_, .f32⟩
  | .hbm, ⟨37, _⟩ => ⟨S1000000x64, .f32⟩
  | .hbm, ⟨38, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call1_cst : Ref sig .tc := ⟨.hbm, 36, rfl⟩
abbrev main_call1_v0 : Ref sig .tc := ⟨.hbm, 37, rfl⟩
abbrev main_v22 : Ref sig .tc := ⟨.hbm, 38, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S1000000x64 : S_.BroadcastsInDim S1000000x64 (![] : Fin 0 → Fin S1000000x64.rank)
  concatenates_S1000000x64_S1000000x64_S1000000x128_d1 : Shape.Concatenates [S1000000x64, S1000000x64] S1000000x128 1
  transposes_S64x128_S128x64_1_0 : S64x128.Transposes [1, 0] S128x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  gather_S1000000x64_S1000000x1_S1000000x64_1_0_n_n_0_1_164_wf : GatherDims.WF S1000000x64 S1000000x1 S1000000x64 [1] [0] [] [0] [] 1 ![1, 64]
  dot_S1000000x128_S128x64_S1000000x64_1_0_0_1_n_n_wf : DotDims.WF S1000000x128 S128x64 S1000000x64 [1] [0] [0] [1] [] []

variable [Facts₀]

def gather_S1000000x64_S1000000x1_S1000000x64_1_0_n_n_0_1_164 : GatherDims S1000000x64 S1000000x1 S1000000x64 where
  offsetDims := [1]
  collapsedSliceDims := [0]
  operandBatchingDims := []
  startIndicesBatchingDims := []
  startIndexMap := [0]
  indexVectorDim := 1
  sliceSizes := ![1, 64]
  wf := gather_S1000000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf

class Facts : Prop extends Facts₀ where

variable [Facts]
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.BodyValue.lean ====
/-
  What the kernel body stores, read at an entry.

  At a grid point the body holds a 10000-row block of each gathered array, the two 64 × 64 halves of the transposed
  weight and the bias as one row. It multiplies each block by its half, adds the two products and the bias row
  broadcast over the rows, and stores the maximum with zero. On the extended reals the changes of float format are
  the identity and a matrix product into the zero accumulator is the plain sum of products, so entry (r, q) of what is
  stored is

      max( Σ_{k<64} a(r,k) · u(k,q)  +  Σ_{k<64} c(r,k) · v(k,q)  +  β(0,q) ,  0 )

  for the two blocks a, c, the two weight halves u, v and the bias row β.
-/
import proofs.«129117_j63668595196147_2_alg».proof.Proof.Gen.KernelIdeal.Skeleton
import proofs.«129117_j63668595196147_2_alg».proof.Proof.LibDot
import Idealize.ShloMosaic.Lib.ValueIdx
import Idealize.ShloMosaic.Lib.ValueLayout
import Idealize.ShloMosaic.Lib.Pipeline.Value

noncomputable section

namespace Cert.HalfEdge.Body

open Idealize.ShloMosaic Idealize.ShloMosaic.ValueIdx
open Cert.KernelIdeal Cert.KernelIdeal.Gen

/-- Entry (r, q) of the stored block, from the five loaded blocks. -/
theorem stored_apply (a c : FVec Ideal S10000x64 .f32) (u v : FVec Ideal S64x64 .bf16) (β : FVec Ideal S1x64 .f32)
    (r : Fin 10000) (q : Fin 64) :
    k0_pay1 (F := Ideal) a c u v β (ix2 r q)
      = max ((∑ k : Fin 64, a (ix2 r k) * u (ix2 k q) + ∑ k : Fin 64, c (ix2 r k) * v (ix2 k q)) + β (ix2 (0 : Fin 1) q))
          (Ideal.ofBits .f32 0x00000000#32) := by
  unfold k0_pay1
  simp only [maximumf_apply, addf_apply, broadcast_apply, shapeCast_self, Idealize.ShloMosaic.matmul]
  rw [Cert.LibDot.matmul_zero_plain_apply dot_S10000x64_S64x64_S10000x64_1_0_0_1_n_n rfl rfl rfl rfl rfl rfl none,
    Cert.LibDot.matmul_zero_plain_apply dot_S10000x64_S64x64_S10000x64_1_0_0_1_n_n rfl rfl rfl rfl rfl rfl none,
    broadcastTo_1b_ab_apply]
  rfl

end Cert.HalfEdge.Body

end
-- ==== Proof.Layer.lean ====
/-
  The linear layer of a half-edge convolution as one function of its arrays, and the splitting of its contraction.

  Each half-edge p carries two feature rows of width 64: nxt(p, ·), the features gathered from the next half-edge, and
  twn(p, ·), those gathered from its twin (zeros where it has none). The layer's weight W is 64 × 128, its bias b has 64
  entries, and output channel q of half-edge p is

      max( Σ_{k<64} nxt(p,k) · W(q,k)  +  Σ_{k<64} twn(p,k) · W(q,64+k)  +  b(q) ,  0 ).

  With the two rows set side by side as one row cat(p, ·) of width 128, the two sums are the one sum over k < 128 of
  cat(p,k) · W(q,k): a sum over 128 = 64 + 64 indices is the sum over the first 64 plus the sum over the last 64.
  That holds in every commutative monoid, so on the extended reals it asks nothing of the summands: no finiteness.
-/
import Idealize.ShloMosaic.Lib.ValueIdx
import Idealize.ShloMosaic.PureOps.Ideal

noncomputable section

namespace Cert.HalfEdge

open Idealize.ShloMosaic Idealize.ShloMosaic.ValueIdx

/-- Column `k` of the first half of a row of width 128. -/
abbrev lo (k : Fin 64) : Fin 128 := ⟨k.val, by omega⟩

/-- Column `k` of the second half of a row of width 128. -/
abbrev hi (k : Fin 64) : Fin 128 := ⟨64 + k.val, by omega⟩

/-- A sum over 128 indices is the sum over the first 64 plus the sum over the last 64. -/
theorem sum_halves {M : Type*} [AddCommMonoid M] (f : Fin 128 → M) :
    ∑ k : Fin 128, f k = ∑ k : Fin 64, f (lo k) + ∑ k : Fin 64, f (hi k) :=
  Fin.sum_univ_add (a := 64) (b := 64) f

/-- Output channel `q` of half-edge `p`: the two half contractions, the bias, and the rectifier against the float
    word of zero (kept as a word: both programs carry the same one). -/
def layerAt (nxt twn : (⟨2, ![1000000, 64]⟩ : Shape).Idx → EReal) (W : (⟨2, ![64, 128]⟩ : Shape).Idx → EReal)
    (b : (⟨1, ![64]⟩ : Shape).Idx → EReal) (p : Fin 1000000) (q : Fin 64) : EReal :=
  max ((∑ k : Fin 64, nxt (ix2 p k) * W (ix2 q (lo k)) + ∑ k : Fin 64, twn (ix2 p k) * W (ix2 q (hi k))) + b (ix1 q))
    (Ideal.ofBits .f32 0x00000000#32)

/-- The layer's whole output array. -/
def layer (nxt twn : (⟨2, ![1000000, 64]⟩ : Shape).Idx → EReal) (W : (⟨2, ![64, 128]⟩ : Shape).Idx → EReal)
    (b : (⟨1, ![64]⟩ : Shape).Idx → EReal) : (⟨2, ![1000000, 64]⟩ : Shape).Idx → EReal :=
  fun i => layerAt nxt twn W b (i 0) (i 1)

theorem layer_ix2 (nxt twn : (⟨2, ![1000000, 64]⟩ : Shape).Idx → EReal) (W : (⟨2, ![64, 128]⟩ : Shape).Idx → EReal)
    (b : (⟨1, ![64]⟩ : Shape).Idx → EReal) (p : Fin 1000000) (q : Fin 64) :
    layer nxt twn W b (ix2 p q) = layerAt nxt twn W b p q := rfl

end Cert.HalfEdge

end
-- ==== Proof.BlockLayer.lean ====
/-
  A stored entry is the layer's entry.

  If row r of the two blocks the body loads is row p of the two gathered arrays, the two weight halves are the two
  column halves of W transposed (u(k,q) = W(q,k), v(k,q) = W(q,64+k)) and the bias row is b, then entry (r, q) of what
  the body stores is output channel q of half-edge p.
-/
import proofs.«129117_j63668595196147_2_alg».proof.Proof.BodyValue
import proofs.«129117_j63668595196147_2_alg».proof.Proof.Layer

noncomputable section

namespace Cert.HalfEdge.Body

open Idealize.ShloMosaic Idealize.ShloMosaic.ValueIdx
open Cert.KernelIdeal Cert.KernelIdeal.Gen Cert.HalfEdge

theorem stored_eq_layerAt (a c : FVec Ideal S10000x64 .f32) (u v : FVec Ideal S64x64 .bf16) (β : FVec Ideal S1x64 .f32)
    (nxt twn : (⟨2, ![1000000, 64]⟩ : Shape).Idx → EReal) (W : (⟨2, ![64, 128]⟩ : Shape).Idx → EReal)
    (b : (⟨1, ![64]⟩ : Shape).Idx → EReal) (r : Fin 10000) (q : Fin 64) (p : Fin 1000000)
    (ha : ∀ k : Fin 64, a (ix2 r k) = nxt (ix2 p k)) (hc : ∀ k : Fin 64, c (ix2 r k) = twn (ix2 p k))
    (hu : ∀ k : Fin 64, u (ix2 k q) = W (ix2 q (lo k))) (hv : ∀ k : Fin 64, v (ix2 k q) = W (ix2 q (hi k)))
    (hβ : β (ix2 (0 : Fin 1) q) = b (ix1 q)) :
    k0_pay1 (F := Ideal) a c u v β (ix2 r q) = layerAt nxt twn W b p q := by
  rw [stored_apply]
  unfold layerAt
  simp only [ha, hc, hu, hv, hβ]

end Cert.HalfEdge.Body

end
-- ==== Proof.RegionEntry.lean ====
/-
  What the kernel's region finds in its five input arrays.

  Before the region the program gathers the two feature arrays, cuts the 64 × 128 weight into its two column halves,
  transposes each, and casts the bias to one row. So, as the region finds them: the two weight arrays read at (k, q)
  are W(q, k) and W(q, 64 + k) (the change of float format is the identity on the extended reals), the bias row read
  at (0, q) is b(q), and the two gathered arrays are the gathers' own terms, which are never opened here: the
  reference gathers with the same operations.
-/
import proofs.«129117_j63668595196147_2_alg».proof.Proof.Gen.KernelIdeal.Frame
import proofs.«129117_j63668595196147_2_alg».proof.Proof.Layer
import Idealize.ShloMosaic.Lib.StableHlo.Run
import Idealize.ShloMosaic.Lib.ValueLayout
import Idealize.ShloMosaic.Lib.Pipeline.Value
import Idealize.ShloMosaic.PureOps.Ideal

noncomputable section

namespace Cert.HalfEdge.Entry

open Idealize.ShloMosaic Idealize.ShloMosaic.TcCoe Idealize.SL.Sem Idealize.ShloMosaic.ValueIdx
open Cert.KernelIdeal Cert.KernelIdeal.Gen Cert.HalfEdge

variable (m : (ℓ : Loc nD τ sig) → Buf (Elt Ideal) ℓ) (c : Dev nD)

/-- A signed index below zero is moved up by the number of rows, then laid out as one column: the start indices of a
    row gather. -/
def wrapped (idx : (⟨S1000000, .i32⟩ : BufTy).Contents (Elt Ideal)) : (⟨S1000000x1, .i32⟩ : BufTy).Contents (Elt Ideal) :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 1000000#32))) idx)

/-- The features gathered from the next half-edge. -/
def nextRows (x : (⟨S1000000x64, .f32⟩ : BufTy).Contents (Elt Ideal)) (idx : (⟨S1000000, .i32⟩ : BufTy).Contents (Elt Ideal)) :
    (⟨S1000000x64, .f32⟩ : BufTy).Contents (Elt Ideal) :=
  Host.gather gather_S1000000x64_S1000000x1_S1000000x64_1_0_n_n_0_1_164 x (wrapped idx)

/-- The features gathered from the twin half-edge, zero where there is none. -/
def twinRows (x : (⟨S1000000x64, .f32⟩ : BufTy).Contents (Elt Ideal)) (idx : (⟨S1000000, .i32⟩ : BufTy).Contents (Elt Ideal))
    (has : (⟨S1000000, .i1⟩ : BufTy).Contents (Elt Ideal)) : (⟨S1000000x64, .f32⟩ : BufTy).Contents (Elt Ideal) :=
  select (broadcastInDim S1000000x64 ![0, 1] bcast_S1000000x1_S1000000x64_0_1 (broadcastInDim S1000000x1 ![0] bcast_S1000000_S1000000x1_0 has))
    (Host.gather gather_S1000000x64_S1000000x1_S1000000x64_1_0_n_n_0_1_164 x (wrapped idx))
    (broadcastInDim S1000000x64 ![] bcast_S_S1000000x64 (id (constant (F := Ideal) S_ .f32 0x00000000#32)))

/-- The first gathered array, as the region finds it. -/
theorem next_eq : @Eq (S1000000x64.Idx → EReal) (V m c main_v6)
    (nextRows (m ((c : Thread nD τ).loc main_arg0)) (m ((c : Thread nD τ).loc main_arg1))) := by
  dsimp only [Gen.V]
  simp only [hostOps0, hostOps0_1, hostOps0_2, List.flatten_cons, List.flatten_nil, List.append_nil, List.cons_append, List.nil_append]
  after_results_simp <;> rfl

/-- The second gathered array, as the region finds it. -/
theorem twin_eq : @Eq (S1000000x64.Idx → EReal) (V m c main_v15)
    (twinRows (m ((c : Thread nD τ).loc main_arg0)) (m ((c : Thread nD τ).loc main_arg2)) (m ((c : Thread nD τ).loc main_arg3))) := by
  dsimp only [Gen.V]
  simp only [hostOps0, hostOps0_1, hostOps0_2, List.flatten_cons, List.flatten_nil, List.append_nil, List.cons_append, List.nil_append]
  after_results_simp <;> rfl

/-- The first weight array: the transpose of the weight's first 64 columns. -/
theorem wn_eq : @Eq (S64x64.Idx → EReal) (V m c main_v18)
      (truncf (F := Ideal) .bf16 (transpose S64x64 [1, 0] (extractStridedSlice S64x64 ![0, 0] (m ((c : Thread nD τ).loc main_arg4)) slices_S64x128_S64x64_0_0) transposes_S64x64_S64x64_1_0) bitsLt_bf16_f32) := by
  dsimp only [Gen.V]
  simp only [hostOps0, hostOps0_1, hostOps0_2, List.flatten_cons, List.flatten_nil, List.append_nil, List.cons_append, List.nil_append]
  after_results

theorem wn_entry (k q : Fin 64) :
    (V m c main_v18 : S64x64.Idx → EReal) (ix2 k q) = (m ((c : Thread nD τ).loc main_arg4) : S64x128.Idx → EReal) (ix2 q (lo k)) := by
  rw [wn_eq, truncf_apply, transpose_ix2_apply, slice2_axis1_apply 0 _ _ q k (lo k) (Nat.zero_add _).symm]

/-- The second weight array: the transpose of the weight's last 64 columns. -/
theorem wt_eq : @Eq (S64x64.Idx → EReal) (V m c main_v21)
      (truncf (F := Ideal) .bf16 (transpose S64x64 [1, 0] (extractStridedSlice S64x64 ![0, 64] (m ((c : Thread nD τ).loc main_arg4)) slices_S64x128_S64x64_0_64) transposes_S64x64_S64x64_1_0) bitsLt_bf16_f32) := by
  dsimp only [Gen.V]
  simp only [hostOps0, hostOps0_1, hostOps0_2, List.flatten_cons, List.flatten_nil, List.append_nil, List.cons_append, List.nil_append]
  after_results

theorem wt_entry (k q : Fin 64) :
    (V m c main_v21 : S64x64.Idx → EReal) (ix2 k q) = (m ((c : Thread nD τ).loc main_arg4) : S64x128.Idx → EReal) (ix2 q (hi k)) := by
  rw [wt_eq, truncf_apply, transpose_ix2_apply, slice2_axis1_apply 64 _ _ q k (hi k) rfl]

/-- The bias as one row. -/
theorem bias_eq : @Eq (S1x64.Idx → EReal) (V m c main_v22)
      (shapeCast S1x64 (m ((c : Thread nD τ).loc main_arg5)) shapeCasts_S64_S1x64) := by
  dsimp only [Gen.V]
  simp only [hostOps0, hostOps0_1, hostOps0_2, List.flatten_cons, List.flatten_nil, List.append_nil, List.cons_append, List.nil_append]
  after_results
  rfl

theorem bias_entry (q : Fin 64) :
    (V m c main_v22 : S1x64.Idx → EReal) (ix2 (0 : Fin 1) q) = (m ((c : Thread nD τ).loc main_arg5) : S64.Idx → EReal) (ix1 q) := by
  rw [bias_eq, shapeCast_a_1a_apply]

end Cert.HalfEdge.Entry

end
-- ==== Proof.ArrayValue.lean ====
/-
  The kernel's result array is the layer of the two gathered arrays.

  The grid has 100 points; point t fetches rows 10000·t … 10000·t + 9999 of the two gathered arrays, the whole of the
  two weight arrays and of the bias row, and writes back rows 10000·t … 10000·t + 9999 of the result. So entry (r, q)
  of what point t writes is output channel q of half-edge p = 10000·t + r, and since every row p < 1000000 lies in
  the block of point p / 10000, the result array is the layer at every entry.
-/
import proofs.«129117_j63668595196147_2_alg».proof.Proof.Gen.KernelIdeal.Value
import proofs.«129117_j63668595196147_2_alg».proof.Proof.BlockLayer
import proofs.«129117_j63668595196147_2_alg».proof.Proof.RegionEntry

noncomputable section

namespace Cert.HalfEdge.Array

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.HalfEdge Cert.HalfEdge.Entry

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the two row-blocked inputs and the output sit at block row t, column block 0;
    the weights and the bias always at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block as rows of its array -/

/-- Row r of the first gathered array's block at point t is row 10000·t + r of the array. -/
theorem blk0_apply (c : Dev nD) (t : Fin cfg0.N) (r : Fin 10000) (k : Fin 64) (p : Fin 1000000) (hp : p.val = t.val * 10000 + r.val) :
    (iblk m c 0 t : S10000x64.Idx → EReal) (ix2 r k) = (V m c main_v6 : S1000000x64.Idx → EReal) (ix2 p k) := by
  unfold iblk
  rw [View.read_apply]
  show V m c main_v6 _ = V m c main_v6 _
  refine congrArg (V m c main_v6 : S1000000x64.Idx → EReal) (funext fun a => Fin.ext ?_)
  match a with
  | ⟨0, _⟩ => show win0_0.index t (0 : Fin 2) * 10000 + 1 * r.val = p.val; rw [(idx_facts t).1, hp]; omega
  | ⟨1, _⟩ => show win0_0.index t (1 : Fin 2) * 64 + 1 * k.val = k.val; rw [(idx_facts t).2.1]; omega

/-- The same for the second gathered array. -/
theorem blk1_apply (c : Dev nD) (t : Fin cfg0.N) (r : Fin 10000) (k : Fin 64) (p : Fin 1000000) (hp : p.val = t.val * 10000 + r.val) :
    (iblk m c 1 t : S10000x64.Idx → EReal) (ix2 r k) = (V m c main_v15 : S1000000x64.Idx → EReal) (ix2 p k) := by
  unfold iblk
  rw [View.read_apply]
  show V m c main_v15 _ = V m c main_v15 _
  refine congrArg (V m c main_v15 : S1000000x64.Idx → EReal) (funext fun a => Fin.ext ?_)
  match a with
  | ⟨0, _⟩ => show win0_1.index t (0 : Fin 2) * 10000 + 1 * r.val = p.val; rw [(idx_facts t).2.2.1, hp]; omega
  | ⟨1, _⟩ => show win0_1.index t (1 : Fin 2) * 64 + 1 * k.val = k.val; rw [(idx_facts t).2.2.2.1]; omega

/-- The first weight array's block is the whole array, at every point. -/
theorem blk2_apply (c : Dev nD) (t : Fin cfg0.N) (k q : Fin 64) :
    (iblk m c 2 t : S64x64.Idx → EReal) (ix2 k q) = (V m c main_v18 : S64x64.Idx → EReal) (ix2 k q) := by
  unfold iblk
  rw [View.read_apply]
  show V m c main_v18 _ = V m c main_v18 _
  refine congrArg (V m c main_v18 : S64x64.Idx → EReal) (funext fun a => Fin.ext ?_)
  match a with
  | ⟨0, _⟩ => show win0_2.index t (0 : Fin 2) * 64 + 1 * k.val = k.val; rw [(idx_facts t).2.2.2.2.1]; omega
  | ⟨1, _⟩ => show win0_2.index t (1 : Fin 2) * 64 + 1 * q.val = q.val; rw [(idx_facts t).2.2.2.2.2.1]; omega

/-- The second weight array's block is the whole array, at every point. -/
theorem blk3_apply (c : Dev nD) (t : Fin cfg0.N) (k q : Fin 64) :
    (iblk m c 3 t : S64x64.Idx → EReal) (ix2 k q) = (V m c main_v21 : S64x64.Idx → EReal) (ix2 k q) := by
  unfold iblk
  rw [View.read_apply]
  show V m c main_v21 _ = V m c main_v21 _
  refine congrArg (V m c main_v21 : S64x64.Idx → EReal) (funext fun a => Fin.ext ?_)
  match a with
  | ⟨0, _⟩ => show win0_3.index t (0 : Fin 2) * 64 + 1 * k.val = k.val; rw [(idx_facts t).2.2.2.2.2.2.1]; omega
  | ⟨1, _⟩ => show win0_3.index t (1 : Fin 2) * 64 + 1 * q.val = q.val; rw [(idx_facts t).2.2.2.2.2.2.2.1]; omega

/-- The bias row's block is the whole row, at every point. -/
theorem blk4_apply (c : Dev nD) (t : Fin cfg0.N) (q : Fin 64) :
    (iblk m c 4 t : S1x64.Idx → EReal) (ix2 (0 : Fin 1) q) = (V m c main_v22 : S1x64.Idx → EReal) (ix2 (0 : Fin 1) q) := by
  unfold iblk
  rw [View.read_apply]
  show V m c main_v22 _ = V m c main_v22 _
  refine congrArg (V m c main_v22 : S1x64.Idx → EReal) (funext fun a => Fin.ext ?_)
  match a with
  | ⟨0, _⟩ => show win0_4.index t (0 : Fin 2) * 1 + 1 * 0 = 0; rw [(idx_facts t).2.2.2.2.2.2.2.2.1]
  | ⟨1, _⟩ => show win0_4.index t (1 : Fin 2) * 64 + 1 * q.val = q.val; rw [(idx_facts t).2.2.2.2.2.2.2.2.2.1]; omega

/-! ## The result array -/

/-- What the result array ends holding: the layer of the two gathered arrays, the weight and the bias. -/
abbrev result (c : Dev nD) : S1000000x64.Idx → EReal :=
  layer (nextRows (m ((c : Thread nD τ).loc main_arg0)) (m ((c : Thread nD τ).loc main_arg1)))
    (twinRows (m ((c : Thread nD τ).loc main_arg0)) (m ((c : Thread nD τ).loc main_arg2)) (m ((c : Thread nD τ).loc main_arg3)))
    (m ((c : Thread nD τ).loc main_arg4)) (m ((c : Thread nD τ).loc main_arg5))

/-- Entry (r, q) of what point t stores is output channel q of half-edge 10000·t + r. -/
theorem stored_entry (c : Dev nD) (t : Fin cfg0.N) (r : Fin 10000) (q : Fin 64) (p : Fin 1000000) (hp : p.val = t.val * 10000 + r.val) :
    k0_pay1 (F := Ideal) (iblk m c 0 t) (iblk m c 1 t) (iblk m c 2 t) (iblk m c 3 t) (iblk m c 4 t) (ix2 r q) = result m c (ix2 p q) := by
  refine (Cert.HalfEdge.Body.stored_eq_layerAt (iblk m c 0 t) (iblk m c 1 t) (iblk m c 2 t) (iblk m c 3 t) (iblk m c 4 t)
    (nextRows (m ((c : Thread nD τ).loc main_arg0)) (m ((c : Thread nD τ).loc main_arg1)))
    (twinRows (m ((c : Thread nD τ).loc main_arg0)) (m ((c : Thread nD τ).loc main_arg2)) (m ((c : Thread nD τ).loc main_arg3)))
    (m ((c : Thread nD τ).loc main_arg4)) (m ((c : Thread nD τ).loc main_arg5)) r q p ?_ ?_ ?_ ?_ ?_)
  · intro k; rw [blk0_apply m c t r k p hp, next_eq]
  · intro k; rw [blk1_apply m c t r k p hp, twin_eq]
  · intro k; rw [blk2_apply m c t k q, wn_entry]
  · intro k; rw [blk3_apply m c t k q, wt_entry]
  · rw [blk4_apply m c t q, bias_entry]

/-- What point t writes back is block t of the result. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S10000x64) hz, View.ld_unit_zero (S := S64x64) hz, View.ld_unit_zero (S := S1x64) hz]
  funext j
  have ht : t.val < 100 := Nat.lt_of_lt_of_eq t.isLt N_0
  have hj0 : (j 0).val < 10000 := (j 0).isLt
  have hj1 : (j 1).val < 64 := (j 1).isLt
  have hL : (cfg0.win 5).xinj (grid0.coords t) j = ix2 (⟨(j 0).val, hj0⟩ : Fin 10000) (⟨(j 1).val, hj1⟩ : Fin 64) :=
    funext fun a => by match a with | ⟨0, _⟩ => rfl | ⟨1, _⟩ => rfl
  have hR : ((cfg0.win 5).blk t).view.emb j
      = ix2 (⟨t.val * 10000 + (j 0).val, by omega⟩ : Fin 1000000) (⟨(j 1).val, hj1⟩ : Fin 64) :=
    funext fun a => Fin.ext (by
      match a with
      | ⟨0, _⟩ => show win0_5.index t (0 : Fin 2) * 10000 + 1 * (j 0).val = t.val * 10000 + (j 0).val; rw [(idx_facts t).2.2.2.2.2.2.2.2.2.2.1]; omega
      | ⟨1, _⟩ => show win0_5.index t (1 : Fin 2) * 64 + 1 * (j 1).val = (j 1).val; rw [(idx_facts t).2.2.2.2.2.2.2.2.2.2.2]; omega)
  show k0_pay1 (F := Ideal) (iblk m c 0 t) (iblk m c 1 t) (iblk m c 2 t) (iblk m c 3 t) (iblk m c 4 t) ((cfg0.win 5).xinj (grid0.coords t) j)
    = result m c (((cfg0.win 5).blk t).view.emb j)
  rw [hL, hR]
  exact stored_entry m c t _ _ _ rfl

/-- An index of the array is in point t's block iff each coordinate is in the block's range on its axis. -/
theorem mem_blk (t : Fin cfg0.N) (i : S1000000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v23).slice (win0_5.rect t)).set ↔ _
  rw [View.set_slice_whole, Rect.mem_set_unit]
  exact Iff.rfl

/-- Every entry of the array lies in the block of the point that holds its row. -/
theorem cover (i : S1000000x64.Idx) : ∃ t : Fin cfg0.N, (cfg0.win 5).flush t = true ∧ i ∈ ((cfg0.win 5).blk t).view.set := by
  have hi0 : (i 0).val < 1000000 := (i 0).isLt
  have hi1 : (i 1).val < 64 := (i 1).isLt
  have hN : cfg0.N = 100 := N_0
  let t : Fin cfg0.N := ⟨(i 0).val / 10000, by rw [hN]; omega⟩
  refine ⟨t, flush0_5 t, ?_⟩
  rw [mem_blk]
  have e0 : win0_5.index t (0 : Fin 2) = (i 0).val / 10000 := (idx_facts t).2.2.2.2.2.2.2.2.2.2.1
  have e1 : win0_5.index t (1 : Fin 2) = 0 := (idx_facts t).2.2.2.2.2.2.2.2.2.2.2
  intro a
  match a with
  | ⟨0, _⟩ => show win0_5.index t (0 : Fin 2) * 10000 ≤ (i 0).val ∧ (i 0).val < win0_5.index t (0 : Fin 2) * 10000 + 10000; rw [e0]; omega
  | ⟨1, _⟩ => show win0_5.index t (1 : Fin 2) * 64 ≤ (i 1).val ∧ (i 1).val < win0_5.index t (1 : Fin 2) * 64 + 64; rw [e1]; omega

/-- So the result array ends holding the layer. -/
theorem final (c : Dev nD) : (dats m 0 c).arrAt 5 cfg0.N = result m c :=
  (dats m 0 c).arrAt_eq_of_cover 5 (result m c) (fun t _ => flushed_eq m c t) cover

/-- The kernel's run, read: the result array at the layer of the gathered arrays, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.HalfEdge.Array

end
-- ==== Proof.LibCols.lean ====
/-
  Two matrices set side by side, read at an index.

  For an a × b₁ matrix x₁ and an a × b₂ matrix x₂ concatenated along the column axis into an a × b matrix, the entry
  at (r, j) with j < b₁ is x₁(r, j), and the entry at (r, b₁ + q) is x₂(r, q) — generic in the four extents.
-/
import Idealize.ShloMosaic.Lib.Pipeline.Value
import Idealize.ShloMosaic.Lib.ValueIdx

namespace Cert.LibCols

open Idealize.ShloMosaic Idealize.ShloMosaic.ValueIdx

variable {α : Type} {a b₁ b₂ b : Nat}

/-- A column in the first piece's range reads the first piece at the same coordinates. -/
theorem concat_cols_left (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (r : Fin a) (j : Fin b) (q : Fin b₁)
    (hq : q.val = j.val) :
    concatenate ⟨2, ![a, b]⟩ 1 [⟨⟨2, ![a, b₁]⟩, x₁⟩, ⟨⟨2, ![a, b₂]⟩, x₂⟩] h (ix2 r j) = x₁ (ix2 r q) :=
  concatenate_pair_apply_left 1 x₁ x₂ h (ix2 r j) rfl (ix2 r q) fun c => match c with
    | ⟨0, _⟩ => rfl
    | ⟨1, _⟩ => hq

/-- A column past the first piece's range reads the second piece, the first piece's width less. -/
theorem concat_cols_right (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (r : Fin a) (j : Fin b) (q : Fin b₂)
    (hq : q.val + b₁ = j.val) :
    concatenate ⟨2, ![a, b]⟩ 1 [⟨⟨2, ![a, b₁]⟩, x₁⟩, ⟨⟨2, ![a, b₂]⟩, x₂⟩] h (ix2 r j) = x₂ (ix2 r q) :=
  concatenate_pair_apply_right 1 x₁ x₂ h (ix2 r j) rfl rfl (ix2 r q)
    (fun c hc => match c, hc with
      | ⟨0, _⟩, _ => rfl
      | ⟨1, _⟩, hc => absurd rfl hc)
    hq

end Cert.LibCols
-- ==== Proof.RefLayer.lean ====
/-
  The reference computes the layer.

  The reference sets the two gathered arrays side by side into one array cat of width 128, multiplies it by the
  transposed weight (entry (k, q) of the transpose is W(q, k)), adds the bias broadcast over the rows and takes the
  maximum with zero. Read at (p, q): the product is the sum over k < 128 of cat(p,k) · W(q,k); its first 64 terms read
  the next-half-edge array at (p,k) and its last 64 the twin array at (p,k), so the sum splits into the layer's two half
  contractions.
-/
import proofs.«129117_j63668595196147_2_alg».proof.Proof.Gen.ReferenceIdeal.Read
import proofs.«129117_j63668595196147_2_alg».proof.Proof.Layer
import proofs.«129117_j63668595196147_2_alg».proof.Proof.LibCols

noncomputable section

namespace Cert.HalfEdge.Ref

open Idealize.ShloMosaic Idealize.ShloMosaic.ValueIdx
open Cert.ReferenceIdeal Cert.ReferenceIdeal.Gen Cert.ReferenceIdeal.Read Cert.HalfEdge

/-- The side-by-side array read in its first half: the next-half-edge array. -/
theorem cat_lo (x0 : (⟨S1000000x64, .f32⟩ : BufTy).Contents (Elt Ideal)) (x1 x2 : (⟨S1000000, .i32⟩ : BufTy).Contents (Elt Ideal))
    (x3 : (⟨S1000000, .i1⟩ : BufTy).Contents (Elt Ideal)) (p : Fin 1000000) (k : Fin 64) :
    val_main_v16 (F := Ideal) x0 x1 x2 x3 (ix2 p (lo k)) = val_main_v6 (F := Ideal) x0 x1 (ix2 p k) := by
  unfold val_main_v16
  exact Cert.LibCols.concat_cols_left _ _ _ p (lo k) k rfl

/-- The side-by-side array read in its second half: the twin array. -/
theorem cat_hi (x0 : (⟨S1000000x64, .f32⟩ : BufTy).Contents (Elt Ideal)) (x1 x2 : (⟨S1000000, .i32⟩ : BufTy).Contents (Elt Ideal))
    (x3 : (⟨S1000000, .i1⟩ : BufTy).Contents (Elt Ideal)) (p : Fin 1000000) (k : Fin 64) :
    val_main_v16 (F := Ideal) x0 x1 x2 x3 (ix2 p (hi k)) = val_main_v15 (F := Ideal) x0 x2 x3 (ix2 p k) := by
  unfold val_main_v16
  exact Cert.LibCols.concat_cols_right _ _ _ p (hi k) k (Nat.add_comm _ _)

/-- The reference's result at (p, q) is the layer of its two gathered arrays, the weight and the bias. -/
theorem result_apply (x0 : (⟨S1000000x64, .f32⟩ : BufTy).Contents (Elt Ideal)) (x1 x2 : (⟨S1000000, .i32⟩ : BufTy).Contents (Elt Ideal))
    (x3 : (⟨S1000000, .i1⟩ : BufTy).Contents (Elt Ideal)) (x4 : (⟨S64x128, .f32⟩ : BufTy).Contents (Elt Ideal))
    (x5 : (⟨S64, .f32⟩ : BufTy).Contents (Elt Ideal)) (p : Fin 1000000) (q : Fin 64) :
    val_main_v22 (F := Ideal) x0 x1 x2 x3 x4 x5 (ix2 p q)
      = layerAt (val_main_v6 (F := Ideal) x0 x1) (val_main_v15 (F := Ideal) x0 x2 x3) x4 x5 p q := by
  have eb : idx_main_v19 (idx_main_v20 (ix2 p q)) = ix1 q :=
    funext fun a => Fin.ext (by match a with | ⟨0, _⟩ => rfl)
  have el : ∀ k : Fin 128, lidx_main_v18 (ix2 p q) k = ix2 p k := fun k =>
    funext fun a => Fin.ext (by match a with | ⟨0, _⟩ => rfl | ⟨1, _⟩ => rfl)
  have er : ∀ k : Fin 128, idx_main_v17 (ridx_main_v18 (ix2 p q) k) = ix2 q k := fun k =>
    funext fun a => Fin.ext (by match a with | ⟨0, _⟩ => rfl | ⟨1, _⟩ => rfl)
  rw [val_main_v22_apply, val_main_v21_apply, val_main_v18_apply, val_main_call1_v0_apply, val_main_call1_cst_apply,
    val_main_v20_apply, val_main_v19_apply, eb, sum_halves]
  simp only [val_main_v17_apply, el, er, cat_lo, cat_hi]
  rfl

/-- The same as one equation of arrays. -/
theorem result_eq (x0 : (⟨S1000000x64, .f32⟩ : BufTy).Contents (Elt Ideal)) (x1 x2 : (⟨S1000000, .i32⟩ : BufTy).Contents (Elt Ideal))
    (x3 : (⟨S1000000, .i1⟩ : BufTy).Contents (Elt Ideal)) (x4 : (⟨S64x128, .f32⟩ : BufTy).Contents (Elt Ideal))
    (x5 : (⟨S64, .f32⟩ : BufTy).Contents (Elt Ideal)) :
    val_main_v22 (F := Ideal) x0 x1 x2 x3 x4 x5
      = layer (val_main_v6 (F := Ideal) x0 x1) (val_main_v15 (F := Ideal) x0 x2 x3) x4 x5 := by
  funext i
  obtain ⟨p, q, rfl⟩ : ∃ (p : Fin 1000000) (q : Fin 64), i = ix2 p q := ⟨i 0, i 1, eq_ix2 i⟩
  exact result_apply x0 x1 x2 x3 x4 x5 p q

end Cert.HalfEdge.Ref

end
-- ==== Proof.lean ====
/-
  A half-edge convolution layer: the tiled kernel against the plain reference, on the extended reals.

  Both programs gather, for every half-edge p, the 64 features of its next half-edge and of its twin (zeros where it
  has no twin), with the same operations on the same arguments. The reference sets the two gathered rows side by side
  into one row of width 128, multiplies by the transposed 64 × 128 weight, adds the bias and takes the maximum with
  zero. The kernel cuts the weight into its two column halves, and at each of 100 grid points multiplies a 10000-row
  block of each gathered array by its half, adds the two products and the bias row and takes the maximum with zero.

  On the extended reals the kernel's changes of float format are the identity and each matrix product is the plain sum
  of products, so at every entry (p, q) both results are

      max( Σ_{k<64} nxt(p,k) · W(q,k)  +  Σ_{k<64} twn(p,k) · W(q,64+k)  +  b(q) ,  0 ):

  the kernel's by reading each block as rows of its array and the blocks as a cover of the result, the reference's
  because its sum over 128 columns is the sum over the first 64 plus the sum over the last 64. That law holds in every
  commutative monoid, so the precondition (finite inputs) is never opened. The three frames are the kernel's generated
  frames and the reference's run with its result dropped; the idealization rewrote no operation.
-/
import proofs.«129117_j63668595196147_2_alg».proof.Defs
import proofs.«129117_j63668595196147_2_alg».proof.Proof.Gen.Kernel
import proofs.«129117_j63668595196147_2_alg».proof.Proof.Gen.Kernel.Skeleton
import proofs.«129117_j63668595196147_2_alg».proof.Proof.Gen.Kernel.Launch
import proofs.«129117_j63668595196147_2_alg».proof.Proof.Gen.Kernel.Points
import proofs.«129117_j63668595196147_2_alg».proof.Proof.Gen.Kernel.Frame
import proofs.«129117_j63668595196147_2_alg».proof.Proof.Gen.KernelIdeal
import proofs.«129117_j63668595196147_2_alg».proof.Proof.Gen.KernelIdeal.Skeleton
import proofs.«129117_j63668595196147_2_alg».proof.Proof.Gen.KernelIdeal.Launch
import proofs.«129117_j63668595196147_2_alg».proof.Proof.Gen.KernelIdeal.Points
import proofs.«129117_j63668595196147_2_alg».proof.Proof.Gen.KernelIdeal.Frame
import proofs.«129117_j63668595196147_2_alg».proof.Proof.Gen.ReferenceIdeal
import proofs.«129117_j63668595196147_2_alg».proof.Proof.Gen.Pre_finite_inputs
import proofs.«129117_j63668595196147_2_alg».proof.Proof.Gen.KernelIdeal.Value
import proofs.«129117_j63668595196147_2_alg».proof.Proof.Gen.ReferenceIdeal.Run
import proofs.«129117_j63668595196147_2_alg».proof.Proof.Gen.ReferenceIdeal.Read
import proofs.«129117_j63668595196147_2_alg».proof.Proof.ArrayValue
import proofs.«129117_j63668595196147_2_alg».proof.Proof.RefLayer
import Idealize.ShloMosaic.Adequacy
import Idealize.ShloMosaic.Init

noncomputable section

namespace Cert.Proof

open Idealize.ShloMosaic Idealize.SL.Sem

/-- The two programs gather the next half-edge's features with the same operations. -/
theorem next_same (x0 : (⟨Cert.ReferenceIdeal.S1000000x64, .f32⟩ : BufTy).Contents (Elt Ideal))
    (x1 : (⟨Cert.ReferenceIdeal.S1000000, .i32⟩ : BufTy).Contents (Elt Ideal)) :
    Cert.HalfEdge.Entry.nextRows x0 x1 = Cert.ReferenceIdeal.Read.val_main_v6 (F := Ideal) x0 x1 := rfl

/-- And the twin's, masked to zero where there is no twin. -/
theorem twin_same (x0 : (⟨Cert.ReferenceIdeal.S1000000x64, .f32⟩ : BufTy).Contents (Elt Ideal))
    (x2 : (⟨Cert.ReferenceIdeal.S1000000, .i32⟩ : BufTy).Contents (Elt Ideal))
    (x3 : (⟨Cert.ReferenceIdeal.S1000000, .i1⟩ : BufTy).Contents (Elt Ideal)) :
    Cert.HalfEdge.Entry.twinRows x0 x2 x3 = Cert.ReferenceIdeal.Read.val_main_v15 (F := Ideal) x0 x2 x3 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array ends at the layer of its gathered arrays and
    the reference's at the layer of its own, which are the same arrays. -/
theorem algebraic : Cert.algebraic_KernelIdeal_ReferenceIdeal := by
  intro m ρ m' ρ' _ hagree
  refine ⟨fun c => Cert.HalfEdge.Array.result m c, Cert.HalfEdge.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.HalfEdge.Ref.result_eq, ← next_same, ← twin_same,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
